-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S50000x1 : S_.BroadcastsInDim S50000x1 (![] : Fin 0 → Fin S50000x1.rank)
  reducesTo_S50000x1_S_d0_1 : S50000x1.ReducesTo [0, 1] S_

variable [Facts]

def fn_part1 {F : FTy → Type} [FloatOps F] (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  main_v18

def fn {F : FTy → Type} [FloatOps F] (main_arg0 : FVec F S50000x256 .f32) (main_arg1 : FVec F S256x32 .f32) (main_arg2 : FVec F S32 .f32) (main_arg3 : FVec F S50000x1 .f32) (main_arg4 : IVec S1600000 32) (main_arg5 : IVec S1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S50000x1 .f32 := Host.absf main_arg3
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_v13 main_v16
-- ==== Kernel.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S50000x32 : Shape := ⟨2, ![50000, 32]⟩
abbrev S5000x256 : Shape := ⟨2, ![5000, 256]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S5000x1 : Shape := ⟨2, ![5000, 1]⟩

abbrev nBuf : Space → Nat
  | .hbm => 33
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S256x32, .f32⟩
  | .hbm, ⟨2, _⟩ => ⟨S32, .f32⟩
  | .hbm, ⟨3, _⟩ => ⟨S50000x1, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S1600000x32, .f32⟩
  | .hbm, ⟨26, _⟩ => ⟨S1600000x32, .f32⟩
  | .hbm, ⟨27, _⟩ => ⟨S_, .f32⟩
  | .hbm, ⟨28, _⟩ => ⟨S50000x32, .f32⟩
  | .hbm, ⟨29, _⟩ => ⟨S1600000x1, .i32⟩
  | .hbm, ⟨30, _⟩ => ⟨S50000x32, .f32⟩
  | .hbm, ⟨31, _⟩ => ⟨S1x32, .f32⟩
  | .hbm, ⟨32, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x1, .f32⟩
  | .local _ .vmem, ⟨8, _⟩ => ⟨S5000x1, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  dot_S5000x256_S256x32_S5000x32_1_0_0_1_n_n_wf : DotDims.WF S5000x256 S256x32 S5000x32 [1] [0] [0] [1] [] []
  gather_S50000x32_S1600000x1_S1600000x32_1_0_n_n_0_1_132_wf : GatherDims.WF S50000x32 S1600000x1 S1600000x32 [1] [0] [] [0] [] 1 ![1, 32]
  gather_S50000x1_S1600000x1_S1600000x1_1_0_n_n_0_1_11_wf : GatherDims.WF S50000x1 S1600000x1 S1600000x1 [1] [0] [] [0] [] 1 ![1, 1]
  scatter_S50000x32_S1600000x1_S1600000x32_1_0_0_1_wf : ScatterDims.WF S50000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S50000x32.size a
  hwx0_2 : ∀ i : grid0.Coords, EltTy.bits .f32 = 32 ∨ (Rect.block (s := S50000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x32 : Shape := ⟨2, ![256, 32]⟩
abbrev S32 : Shape := ⟨1, ![32]⟩
abbrev S50000x1 : Shape := ⟨2, ![50000, 1]⟩
abbrev S1600000 : Shape := ⟨1, ![1600000]⟩
abbrev S50000x32 : Shape := ⟨2, ![50000, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩

abbrev nBuf : Space → Nat
  | .hbm => 39
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x32, .f32⟩
  | .hbm, ⟨2, _⟩ => ⟨S32, .f32⟩
  | .hbm, ⟨3, _⟩ => ⟨S50000x1, .f32⟩
  | .hbm, ⟨4, _⟩ => ⟨S1600000, .i32⟩
  | .hbm, ⟨5, _⟩ => ⟨S1600000, .i32⟩
  | .hbm, ⟨6, _⟩ => ⟨S50000x32, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x1, .f32⟩
  | .hbm, ⟨25, _⟩ => ⟨S1600000x32, .f32⟩
  | .hbm, ⟨26, _⟩ => ⟨S1600000x32, .f32⟩
  | .hbm, ⟨27, _⟩ => ⟨S_, .f32⟩
  | .hbm, ⟨28, _⟩ => ⟨S50000x32, .f32⟩
  | .hbm, ⟨29, _⟩ => ⟨S1600000x1, .i32⟩
  | .hbm, ⟨30, _⟩ => ⟨S50000x32, .f32⟩
  | .hbm, ⟨31, _⟩ => ⟨S50000x32, .f32⟩
  | .hbm, ⟨32, _⟩ => ⟨S50000x32, .f32⟩
  | .hbm, ⟨33, _⟩ => ⟨S1x32, .f32⟩
  | .hbm, ⟨34, _⟩ => ⟨S50000x32, .f32⟩
  | .hbm, ⟨35, _⟩ => ⟨S50000x32, .f32⟩
  | .hbm, ⟨36, _⟩ => ⟨S_, .f32⟩
  | .hbm, ⟨37, _⟩ => ⟨S50000x32, .f32⟩
  | .hbm, ⟨38, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_cst : Ref sig .tc := ⟨.hbm, 36, rfl⟩
abbrev main_call0_v0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x32_S50000x32_1_0_0_1_n_n_wf : DotDims.WF S50000x256 S256x32 S50000x32 [1] [0] [0] [1] [] []
  gather_S50000x32_S1600000x1_S1600000x32_1_0_n_n_0_1_132_wf : GatherDims.WF S50000x32 S1600000x1 S1600000x32 [1] [0] [] [0] [] 1 ![1, 32]
  gather_S50000x1_S1600000x1_S1600000x1_1_0_n_n_0_1_11_wf : GatherDims.WF S50000x1 S1600000x1 S1600000x1 [1] [0] [] [0] [] 1 ![1, 1]
  scatter_S50000x32_S1600000x1_S1600000x32_1_0_0_1_wf : ScatterDims.WF S50000x32 S1600000x1 S1600000x32 [1] [0] [0] 1

variable [Facts₀]

def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.KernelRun.lean ====
/-
  The idealized kernel's run with its result buffer named.

  The program is two pipelined regions with a stretch of host operations between them.  Its run through the
  segments ends with every unscoped buffer at the last boundary's contents; read at the result buffer, that is
  what the second region's write-backs leave in its output array, and read at an argument it is the launch
  contents.
-/
import proofs.«159542_j10969346474530_2_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and
    the arguments as launched. -/
theorem run_result : θ_run defs (onTc (τ := τ) (main (F := F))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.Payloads.lean ====
/-
  What the two kernel bodies store, read at an entry, at the ideal instance.

  The first body multiplies its block of `h` by the whole `weight` into a zero accumulator: entry `(p, j)` is the
  sum over `q` of `x0 (p, q) · x1 (q, j)` (the roundings to bf16 on the way in are the identity on extended reals).
  The second scales its block of summed messages by the nodes' norm column, adds the bias row and clamps below at
  zero: entry `(p, j)` is `max (x0 (p, j) · x1 (p, 0) + x2 (0, j)) 0`.
-/
import proofs.«159542_j10969346474530_2_alg».proof.Proof.Gen.KernelIdeal.Skeleton
import proofs.«159542_j10969346474530_2_alg».proof.Proof.LibPlainDot
import proofs.«159542_j10969346474530_2_alg».proof.Proof.LibColBroadcast
import proofs.«159542_j10969346474530_2_alg».proof.Proof.LibRowBroadcast
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The product body at an entry: the contraction over the 256 input features. -/
theorem product_body_ix2 (x0 : Vec Ideal S5000x256 .f32) (x1 : Vec Ideal S256x32 .f32) (p : Fin 5000) (j : Fin 32) :
    k0_pay1 (F := Ideal) x0 x1 (ix2 p j) = ∑ q : Fin 256, x0 (ix2 p q) * x1 (ix2 q j) := by
  unfold k0_pay1
  exact Cert.PlainDot.matmul_zero_ix2 dot_S5000x256_S256x32_S5000x32_1_0_0_1_n_n rfl none
    (truncf .bf16 x0 bitsLt_bf16_f32) (truncf .bf16 x1 bitsLt_bf16_f32) p j

/-- The node-update body at an entry. -/
theorem update_body_ix2 (x0 : Vec Ideal S5000x32 .f32) (x1 : Vec Ideal S5000x1 .f32) (x2 : Vec Ideal S1x32 .f32)
    (p : Fin 5000) (j : Fin 32) :
    k1_pay1 (F := Ideal) x0 x1 x2 (ix2 p j)
      = max (x0 (ix2 p j) * x1 (ix2 p (0 : Fin 1)) + x2 (ix2 (0 : Fin 1) j)) (Ideal.ofBits .f32 0x00000000#32) := by
  unfold k1_pay1
  rw [shapeCast_self, shapeCast_self, maximumf_apply, addf_apply, mulf_apply,
    Cert.LibColBroadcast.broadcastTo_a1_ab_apply, Cert.LibRowBroadcast.broadcastTo_1b_ab_apply]
  rfl

end Cert.KernelIdeal.Hand

end
-- ==== Proof.NodeSpec.lean ====
/-
  The layer as functions on the extended reals, index by index.

  A node's projected features are `project h w (p, j) = ∑ q, h (p, q) · w (q, j)`.  After the messages along the
  edges have been summed into `acc`, the node update is
  `update acc nrm brow (p, j) = max (acc (p, j) · nrm (p, 0) + brow (0, j)) 0`.
-/
import Idealize.ShloMosaic.PureOps.Ideal
import Idealize.ShloMosaic.Lib.ValueIdx

noncomputable section

namespace Cert.GraphLayer

open Idealize.ShloMosaic Idealize.ShloMosaic.ValueIdx

/-- The row of an entry of a two-axis array, as a number below the first extent. -/
abbrev rowOf {n0 n1 : Nat} (i : (⟨2, ![n0, n1]⟩ : Shape).Idx) : Fin n0 := ⟨(i 0).val, idx2_lt0 i⟩
/-- The column of an entry of a two-axis array, as a number below the second extent. -/
abbrev colOf {n0 n1 : Nat} (i : (⟨2, ![n0, n1]⟩ : Shape).Idx) : Fin n1 := ⟨(i 1).val, idx2_lt1 i⟩

/-- The projection `h · w`: entry `(p, j)` is the sum over `q` of `h (p, q) · w (q, j)`. -/
def project {n k d : Nat} (h : (⟨2, ![n, k]⟩ : Shape).Idx → EReal) (w : (⟨2, ![k, d]⟩ : Shape).Idx → EReal) :
    (⟨2, ![n, d]⟩ : Shape).Idx → EReal :=
  fun i => ∑ q : Fin k, h (ix2 (rowOf i) q) * w (ix2 q (colOf i))

/-- The node update: the summed messages scaled by the node's own norm, the bias row added, clamped below at the
    float zero. -/
def update {n d : Nat} (acc : (⟨2, ![n, d]⟩ : Shape).Idx → EReal) (nrm : (⟨2, ![n, 1]⟩ : Shape).Idx → EReal)
    (brow : (⟨2, ![1, d]⟩ : Shape).Idx → EReal) : (⟨2, ![n, d]⟩ : Shape).Idx → EReal :=
  fun i => max (acc i * nrm (ix2 (rowOf i) (0 : Fin 1)) + brow (ix2 (0 : Fin 1) (colOf i))) (Ideal.ofBits .f32 0x00000000#32)

theorem project_ix2 {n k d : Nat} (h : (⟨2, ![n, k]⟩ : Shape).Idx → EReal) (w : (⟨2, ![k, d]⟩ : Shape).Idx → EReal)
    (p : Fin n) (j : Fin d) : project h w (ix2 p j) = ∑ q : Fin k, h (ix2 p q) * w (ix2 q j) := rfl

theorem update_ix2 {n d : Nat} (acc : (⟨2, ![n, d]⟩ : Shape).Idx → EReal) (nrm : (⟨2, ![n, 1]⟩ : Shape).Idx → EReal)
    (brow : (⟨2, ![1, d]⟩ : Shape).Idx → EReal) (p : Fin n) (j : Fin d) :
    update acc nrm brow (ix2 p j)
      = max (acc (ix2 p j) * nrm (ix2 p (0 : Fin 1)) + brow (ix2 (0 : Fin 1) j)) (Ideal.ofBits .f32 0x00000000#32) := rfl

/-- The node update at an index, from its three readings. -/
theorem update_at {n d : Nat} (A : (⟨2, ![n, d]⟩ : Shape).Idx → EReal) (N : (⟨2, ![n, 1]⟩ : Shape).Idx → EReal)
    (B : (⟨2, ![1, d]⟩ : Shape).Idx → EReal) (a0 a1 a2 : EReal) (i : (⟨2, ![n, d]⟩ : Shape).Idx)
    (hA : a0 = A i) (hN : a1 = N (ix2 (rowOf i) (0 : Fin 1))) (hB : a2 = B (ix2 (0 : Fin 1) (colOf i))) :
    max (a0 * a1 + a2) (Ideal.ofBits .f32 0x00000000#32) = update A N B i := by
  subst hA hN hB; rfl

end Cert.GraphLayer

end
-- ==== Proof.ProductRegion.lean ====
/-
  The first region: what its output array holds after the run.

  Its grid has ten points; point `t` reads rows `5000·t … 5000·t + 4999` of `h` and the whole `weight`, and writes
  the same rows of the projected features.  What point `t` writes back is block `t` of the projection `h · weight`
  of the two arrays as the region finds them, and the ten blocks cover the output, so the output array ends holding
  the projection.
-/
import proofs.«159542_j10969346474530_2_alg».proof.Proof.Gen.KernelIdeal.Frame
import proofs.«159542_j10969346474530_2_alg».proof.Proof.Payloads
import proofs.«159542_j10969346474530_2_alg».proof.Proof.NodeSpec
import Idealize.ShloMosaic.Lib.Pipeline.Value

noncomputable section

namespace Cert.KernelIdeal.Hand

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem no_offsets : (![0, 0] : Fin 2 → Nat) = fun _ => 0 := funext fun a => by fin_cases a <;> rfl

/-- The block indices of the three windows at a point: `h` and the output are at block row `t`, the weight is at
    block (0, 0) throughout. -/
theorem product_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays as the region finds them. -/
theorem product_flushed (c : Dev nD) (t : Fin cfg0.N) :
    (dat0 V c).flushed 2 t
      = ((cfg0.win 2).blk t).view.read (Elt Ideal) (project (n := 50000) (k := 256) (d := 32) (V c main_arg0) (V c main_arg1)) := by
  show (cfg0.win 2).cut (grid0.coords t) ((dat0 V c).after 2 t) = _
  rw [after0_2]
  unfold out0_2
  rw [View.canon_unit_zero no_offsets]
  simp only [View.ld_unit_zero (S := S5000x256) no_offsets, View.ld_unit_zero (S := S256x32) no_offsets]
  obtain ⟨e00, e01, e10, e11, e20, e21⟩ := product_block_indices t
  funext y
  obtain ⟨p, j, rfl⟩ : ∃ (p : Fin 5000) (j : Fin 32), y = ix2 p j := ⟨y 0, y 1, eq_ix2 y⟩
  show k0_pay1 (iblk0 V c 0 t) (iblk0 V c 1 t) (ix2 p j)
      = project (n := 50000) (k := 256) (d := 32) (V c main_arg0) (V c main_arg1) (((cfg0.win 2).blk t).view.emb (ix2 p j))
  rw [product_body_ix2 (iblk0 V c 0 t) (iblk0 V c 1 t) p j]
  unfold project
  refine Finset.sum_congr rfl fun q _ => ?_
  have h0 : iblk0 V c 0 t (ix2 p q)
      = V c main_arg0 (ix2 (rowOf (n0 := 50000) (n1 := 32) (((cfg0.win 2).blk t).view.emb (ix2 p j))) q) := by
    show V c main_arg0 (((cfg0.win 0).blk t).view.emb (ix2 p q)) = _
    refine congrArg (V c main_arg0 : S50000x256.Idx → EReal) ?_
    funext a; apply Fin.ext
    match a with
    | ⟨0, _⟩ => show win0_0.index t 0 * 5000 + 1 * p.val = win0_2.index t 0 * 5000 + 1 * p.val; rw [e00, e20]
    | ⟨1, _⟩ => show win0_0.index t 1 * 256 + 1 * q.val = q.val; rw [e01]; omega
  have h1 : iblk0 V c 1 t (ix2 q j)
      = V c main_arg1 (ix2 q (colOf (n0 := 50000) (n1 := 32) (((cfg0.win 2).blk t).view.emb (ix2 p j)))) := by
    show V c main_arg1 (((cfg0.win 1).blk t).view.emb (ix2 q j)) = _
    refine congrArg (V c main_arg1 : S256x32.Idx → EReal) ?_
    funext a; apply Fin.ext
    match a with
    | ⟨0, _⟩ => show win0_1.index t 0 * 256 + 1 * q.val = q.val; rw [e10]; omega
    | ⟨1, _⟩ => show win0_1.index t 1 * 32 + 1 * j.val = win0_2.index t 1 * 32 + 1 * j.val; rw [e11, e21]
  rw [h0, h1]

/-- An index of the output is in point `t`'s block iff each coordinate is in the block's range on its axis. -/
theorem product_mem_blk (t : Fin cfg0.N) (i : S50000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v0).slice (win0_2.rect t)).set ↔ _
  rw [View.set_slice_whole, Rect.mem_set_unit]
  exact Iff.rfl

/-- Row `r` of the output is in the block of point `r / 5000`. -/
theorem product_cover (i : S50000x32.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 32 := (i 1).isLt
  obtain ⟨t, ht⟩ : ∃ t : Fin cfg0.N, t.val = (i 0).val / 5000 := ⟨⟨(i 0).val / 5000, by rw [hN]; omega⟩, rfl⟩
  obtain ⟨-, -, -, -, e20, e21⟩ := product_block_indices t
  refine ⟨t, flush0_2 t, ?_⟩
  rw [product_mem_blk]
  intro a
  match a with
  | ⟨0, _⟩ =>
    show win0_2.index t 0 * 5000 ≤ (i 0).val ∧ (i 0).val < win0_2.index t 0 * 5000 + 5000
    rw [e20, ht]; omega
  | ⟨1, _⟩ =>
    show win0_2.index t 1 * 32 ≤ (i 1).val ∧ (i 1).val < win0_2.index t 1 * 32 + 32
    rw [e21]; omega

/-- So the output array ends holding the projection of the two arrays as the region finds them. -/
theorem product_final (c : Dev nD) :
    (dat0 V c).arrAt 2 cfg0.N = project (n := 50000) (k := 256) (d := 32) (V c main_arg0) (V c main_arg1) :=
  (dat0 V c).arrAt_eq_of_cover 2 _ (fun t _ => product_flushed V c t) product_cover

end Cert.KernelIdeal.Hand

end
-- ==== Proof.UpdateRegion.lean ====
/-
  The second region: what its output array holds after the run.

  Its grid has ten points; point `t` reads rows `5000·t … 5000·t + 4999` of the summed messages and of the norm
  column and the whole bias row, and writes the same rows of the result.  What point `t` writes back is block `t`
  of the node update of the three arrays as the region finds them, and the ten blocks cover the result, so the
  result array ends holding the node update.
-/
import proofs.«159542_j10969346474530_2_alg».proof.Proof.Gen.KernelIdeal.Frame
import proofs.«159542_j10969346474530_2_alg».proof.Proof.Payloads
import proofs.«159542_j10969346474530_2_alg».proof.Proof.NodeSpec
import Idealize.ShloMosaic.Lib.Pipeline.Value

noncomputable section

namespace Cert.KernelIdeal.Hand

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the four windows at a point: the three row-blocked windows are at block row `t`, the bias
    row is at block (0, 0) throughout. -/
theorem update_block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the node update of the arrays as the region finds them. -/
theorem update_flushed (c : Dev nD) (t : Fin cfg1.N) :
    (dat1 V c).flushed 3 t
      = ((cfg1.win 3).blk t).view.read (Elt Ideal) (update (n := 50000) (d := 32) (V c main_v19) (V c main_arg3) (V c main_v20)) := by
  show (cfg1.win 3).cut (grid1.coords t) ((dat1 V c).after 3 t) = _
  rw [after1_3]
  unfold out1_3
  rw [View.canon_unit_zero zero_offsets]
  simp only [View.ld_unit_zero (S := S5000x32) zero_offsets, View.ld_unit_zero (S := S5000x1) zero_offsets,
    View.ld_unit_zero (S := S1x32) zero_offsets]
  obtain ⟨e00, e01, e10, e11, e20, e21, e30, e31⟩ := update_block_indices t
  funext y
  obtain ⟨p, j, rfl⟩ : ∃ (p : Fin 5000) (j : Fin 32), y = ix2 p j := ⟨y 0, y 1, eq_ix2 y⟩
  show k1_pay1 (iblk1 V c 0 t) (iblk1 V c 1 t) (iblk1 V c 2 t) (ix2 p j)
      = update (n := 50000) (d := 32) (V c main_v19) (V c main_arg3) (V c main_v20) (((cfg1.win 3).blk t).view.emb (ix2 p j))
  rw [update_body_ix2 (iblk1 V c 0 t) (iblk1 V c 1 t) (iblk1 V c 2 t) p j]
  refine update_at _ _ _ _ _ _ _ ?_ ?_ ?_
  · show V c main_v19 (((cfg1.win 0).blk t).view.emb (ix2 p j)) = V c main_v19 (((cfg1.win 3).blk t).view.emb (ix2 p j))
    refine congrArg (V c main_v19 : S50000x32.Idx → EReal) ?_
    funext a; apply Fin.ext
    match a with
    | ⟨0, _⟩ => show win1_0.index t 0 * 5000 + 1 * p.val = win1_3.index t 0 * 5000 + 1 * p.val; rw [e00, e30]
    | ⟨1, _⟩ => show win1_0.index t 1 * 32 + 1 * j.val = win1_3.index t 1 * 32 + 1 * j.val; rw [e01, e31]
  · show V c main_arg3 (((cfg1.win 1).blk t).view.emb (ix2 p (0 : Fin 1))) = _
    refine congrArg (V c main_arg3 : S50000x1.Idx → EReal) ?_
    funext a; apply Fin.ext
    match a with
    | ⟨0, _⟩ => show win1_1.index t 0 * 5000 + 1 * p.val = win1_3.index t 0 * 5000 + 1 * p.val; rw [e10, e30]
    | ⟨1, _⟩ => show win1_1.index t 1 * 1 + 1 * 0 = 0; rw [e11]
  · show V c main_v20 (((cfg1.win 2).blk t).view.emb (ix2 (0 : Fin 1) j)) = _
    refine congrArg (V c main_v20 : S1x32.Idx → EReal) ?_
    funext a; apply Fin.ext
    match a with
    | ⟨0, _⟩ => show win1_2.index t 0 * 1 + 1 * 0 = 0; rw [e20]
    | ⟨1, _⟩ => show win1_2.index t 1 * 32 + 1 * j.val = win1_3.index t 1 * 32 + 1 * j.val; rw [e21, e31]

/-- An index of the result is in point `t`'s block iff each coordinate is in the block's range on its axis. -/
theorem update_mem_blk (t : Fin cfg1.N) (i : S50000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v21).slice (win1_3.rect t)).set ↔ _
  rw [View.set_slice_whole, Rect.mem_set_unit]
  exact Iff.rfl

/-- Row `r` of the result is in the block of point `r / 5000`. -/
theorem update_cover (i : S50000x32.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 32 := (i 1).isLt
  obtain ⟨t, ht⟩ : ∃ t : Fin cfg1.N, t.val = (i 0).val / 5000 := ⟨⟨(i 0).val / 5000, by rw [hN]; omega⟩, rfl⟩
  obtain ⟨-, -, -, -, -, -, e30, e31⟩ := update_block_indices t
  refine ⟨t, flush1_3 t, ?_⟩
  rw [update_mem_blk]
  intro a
  match a with
  | ⟨0, _⟩ =>
    show win1_3.index t 0 * 5000 ≤ (i 0).val ∧ (i 0).val < win1_3.index t 0 * 5000 + 5000
    rw [e30, ht]; omega
  | ⟨1, _⟩ =>
    show win1_3.index t 1 * 32 ≤ (i 1).val ∧ (i 1).val < win1_3.index t 1 * 32 + 32
    rw [e31]; omega

/-- So the result array ends holding the node update of the three arrays as the region finds them. -/
theorem update_final (c : Dev nD) :
    (dat1 V c).arrAt 3 cfg1.N = update (n := 50000) (d := 32) (V c main_v19) (V c main_arg3) (V c main_v20) :=
  (dat1 V c).arrAt_eq_of_cover 3 _ (fun t _ => update_flushed V c t) update_cover

end Cert.KernelIdeal.Hand

end
-- ==== Proof.HostStretch.lean ====
/-
  The host operations between the two regions.

  They wrap negative source indices, gather each edge's source row of the projected features and the source's norm,
  multiply the two, and add the products into a zero array at the edges' destination rows; a last operation reshapes
  the bias to a row.  `edgeSum hp nrm src dst` names the summed messages as one function of the four arrays it is
  computed from.  Read after the stretch, the summed-messages buffer holds `edgeSum` of what the stretch found in the
  four buffers, the bias-row buffer holds the reshaped bias, and the norm is as it was.
-/
import proofs.«159542_j10969346474530_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- An edge's source index with a negative one wrapped by the number of nodes, as a column of start indices. -/
def sourceRows (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- The messages summed at their destinations: each edge carries its source's projected row scaled by the source's
    norm, and a node receives the sum over the edges that end at it. -/
def edgeSum (hp : (⟨S50000x32, .f32⟩ : BufTy).Contents (Elt F)) (nrm : (⟨S50000x1, .f32⟩ : BufTy).Contents (Elt F))
    (src dst : (⟨S1600000, .i32⟩ : BufTy).Contents (Elt F)) : (⟨S50000x32, .f32⟩ : BufTy).Contents (Elt F) :=
  Host.scatterAdd scatter_S50000x32_S1600000x1_S1600000x32_1_0_0_1
    (broadcastInDim S50000x32 ![] bcast_S_S50000x32 (constant (F := F) S_ .f32 0x00000000#32))
    (broadcastInDim S1600000x1 ![0] bcast_S1600000_S1600000x1_0 dst)
    (mulf (Host.gather gather_S50000x32_S1600000x1_S1600000x32_1_0_n_n_0_1_132 hp (sourceRows src))
      (broadcastInDim S1600000x32 ![0, 1] bcast_S1600000x1_S1600000x32_0_1
        (Host.gather gather_S50000x1_S1600000x1_S1600000x1_1_0_n_n_0_1_11 nrm (sourceRows src))))

set_option maxHeartbeats 2000000 in
/-- After the stretch the summed-messages buffer holds `edgeSum` of the four buffers it was computed from. -/
theorem stretch_messages (W : Valuation τ sig (Elt F)) :
    StableHlo.after (hostOps1 (F := F)) W (Proc.devRef .tc main_v19)
      = edgeSum (W (Proc.devRef .tc main_v0)) (W (Proc.devRef .tc main_arg3)) (W (Proc.devRef .tc main_arg4))
          (W (Proc.devRef .tc main_arg5)) := by
  after_results_simp
  rfl

/-- After the stretch the bias-row buffer holds the bias reshaped to one row. -/
theorem stretch_bias_row (W : Valuation τ sig (Elt F)) :
    StableHlo.after (hostOps1 (F := F)) W (Proc.devRef .tc main_v20)
      = (shapeCast S1x32 (W (Proc.devRef .tc main_arg2)) shapeCasts_S32_S1x32 : (⟨S1x32, .f32⟩ : BufTy).Contents (Elt F)) := by
  after_results
  rfl

/-- The stretch writes no argument: the norm is as it was. -/
theorem stretch_norm (W : Valuation τ sig (Elt F)) :
    StableHlo.after (hostOps1 (F := F)) W (Proc.devRef .tc main_arg3) = W (Proc.devRef .tc main_arg3) := by
  after_results

end Cert.KernelIdeal.Hand

end
-- ==== Proof.Layer.lean ====
/-
  The whole layer as one function of the six arguments: project the features, sum the messages along the edges, and
  update every node with its norm and the bias row.
-/
import proofs.«159542_j10969346474530_2_alg».proof.Proof.HostStretch
import proofs.«159542_j10969346474530_2_alg».proof.Proof.NodeSpec

noncomputable section

namespace Cert.KernelIdeal.Hand

open Cert.KernelIdeal Cert.KernelIdeal.Gen Cert.GraphLayer Idealize.ShloMosaic

/-- `max ((Σ over the edges into a node of (h · w) at the source · norm at the source) · norm + bias) 0`, entry by
    entry. -/
def layer (h : (⟨S50000x256, .f32⟩ : BufTy).Contents (Elt Ideal)) (w : (⟨S256x32, .f32⟩ : BufTy).Contents (Elt Ideal))
    (bias : (⟨S32, .f32⟩ : BufTy).Contents (Elt Ideal)) (nrm : (⟨S50000x1, .f32⟩ : BufTy).Contents (Elt Ideal))
    (src dst : (⟨S1600000, .i32⟩ : BufTy).Contents (Elt Ideal)) : (⟨S50000x32, .f32⟩ : BufTy).Contents (Elt Ideal) :=
  update (n := 50000) (d := 32) (edgeSum (F := Ideal) (project (n := 50000) (k := 256) (d := 32) h w) nrm src dst) nrm
    (shapeCast S1x32 bias shapeCasts_S32_S1x32)

end Cert.KernelIdeal.Hand

end
-- ==== Proof.KernelValue.lean ====
/-
  The idealized kernel's result as the layer function of its arguments.

  The result buffer is the second region's output array, which ends at the node update of what that region found in
  its three input arrays.  The summed messages it found are the host stretch's `edgeSum` of the first region's output —
  the projection of `h` and `weight` as launched — and of the norm and the two index arrays as launched; the norm is as
  launched; the bias row is the launched bias reshaped.
-/
import proofs.«159542_j10969346474530_2_alg».proof.Proof.KernelRun
import proofs.«159542_j10969346474530_2_alg».proof.Proof.ProductRegion
import proofs.«159542_j10969346474530_2_alg».proof.Proof.UpdateRegion
import proofs.«159542_j10969346474530_2_alg».proof.Proof.Layer

noncomputable section

namespace Cert.KernelIdeal.Hand

open Cert.KernelIdeal Cert.KernelIdeal.Gen Cert.GraphLayer
open Idealize.ShloMosaic Idealize.ShloMosaic.TcCoe Idealize.SL.Sem

variable (m : (ℓ : Loc nD τ sig) → Buf (Elt Ideal) ℓ) (ρ : Dev nD → PrngReg)

/-- The last boundary's contents at the result buffer are the layer function of the launch contents. -/
theorem result_value (c : Dev nD) :
    W3 m ρ c (Proc.devRef .tc main_v21)
      = layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have e0 : W1 m ρ c (Proc.devRef .tc main_v0)
      = project (n := 50000) (k := 256) (d := 32) (m ((c.tc : Thread nD τ).loc main_arg0)) (m ((c.tc : Thread nD τ).loc main_arg1)) :=
    (W1_arr m ρ c 2).trans (product_final (V0 m ρ) c)
  have e2 : W1 m ρ c (Proc.devRef .tc main_arg2) = m ((c.tc : Thread nD τ).loc main_arg2) := W1_of_ne m ρ c main_arg2 (by decide)
  have e3 : W1 m ρ c (Proc.devRef .tc main_arg3) = m ((c.tc : Thread nD τ).loc main_arg3) := W1_of_ne m ρ c main_arg3 (by decide)
  have e4 : W1 m ρ c (Proc.devRef .tc main_arg4) = m ((c.tc : Thread nD τ).loc main_arg4) := W1_of_ne m ρ c main_arg4 (by decide)
  have e5 : W1 m ρ c (Proc.devRef .tc main_arg5) = m ((c.tc : Thread nD τ).loc main_arg5) := W1_of_ne m ρ c main_arg5 (by decide)
  have hmsg : V2 m ρ c main_v19 = edgeSum (F := Ideal) (W1 m ρ c (Proc.devRef .tc main_v0)) (W1 m ρ c (Proc.devRef .tc main_arg3))
      (W1 m ρ c (Proc.devRef .tc main_arg4)) (W1 m ρ c (Proc.devRef .tc main_arg5)) := stretch_messages (W1 m ρ c)
  have hnrm : V2 m ρ c main_arg3 = W1 m ρ c (Proc.devRef .tc main_arg3) := stretch_norm (W1 m ρ c)
  have hrow : V2 m ρ c main_v20 = shapeCast S1x32 (W1 m ρ c (Proc.devRef .tc main_arg2)) shapeCasts_S32_S1x32 :=
    stretch_bias_row (W1 m ρ c)
  refine (W3_arr m ρ c 3).trans ((update_final (V2 m ρ) c).trans ?_)
  rw [hmsg, hnrm, hrow, e0, e2, e3, e4, e5]
  rfl

/-- Every weakly fair execution of the idealized kernel terminates with the result at the layer function of the
    launched arguments and the arguments unchanged. -/
theorem run_layer : θ_run defs (onTc (τ := τ) (main (F := Ideal))) ⟨m, fun _ => 0, ρ⟩ (fun r => ∀ c : Dev nD,
      r.2.mem ((c.tc : Thread nD τ).loc main_v21)
        = layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_result m ρ)

end Cert.KernelIdeal.Hand

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.ReferenceValue.lean ====
/-
  The idealized reference's result as the layer function of its arguments.

  Its `dot_general` is the projection; the operations from the index wrap to the scatter-add are, operation for
  operation, the ones the kernel's program runs between its two regions, so the summed messages are the same
  `edgeSum` of the projection, the norm and the two index arrays; the rest — the product with the broadcast norm, the
  sum with the broadcast bias, the maximum with zero — is the node update read entry by entry.
-/
import proofs.«159542_j10969346474530_2_alg».proof.Proof.Gen.ReferenceIdeal.Read
import proofs.«159542_j10969346474530_2_alg».proof.Proof.Layer
import proofs.«159542_j10969346474530_2_alg».proof.Proof.LibPlainDot
import proofs.«159542_j10969346474530_2_alg».proof.Proof.LibRowReshape

noncomputable section

namespace Cert.ReferenceIdeal.Hand

open Cert.ReferenceIdeal Cert.ReferenceIdeal.Gen Cert.ReferenceIdeal.Read Cert.GraphLayer
open Idealize.ShloMosaic Idealize.ShloMosaic.ValueIdx
open Cert.KernelIdeal.Hand (edgeSum layer)

/-- The host's `dot_general` is the projection. -/
theorem projected_eq (x0 : (⟨S50000x256, .f32⟩ : BufTy).Contents (Elt Ideal)) (x1 : (⟨S256x32, .f32⟩ : BufTy).Contents (Elt Ideal)) :
    val_main_v0 (F := Ideal) x0 x1 = project (n := 50000) (k := 256) (d := 32) x0 x1 := by
  funext i
  obtain ⟨p, j, rfl⟩ : ∃ (p : Fin 50000) (j : Fin 32), i = ix2 p j := ⟨i 0, i 1, eq_ix2 i⟩
  unfold val_main_v0
  exact Cert.PlainDot.dotGeneral_ix2 dot_S50000x256_S256x32_S50000x32_1_0_0_1_n_n rfl none x0 x1 p j

/-- The reference's summed messages are `edgeSum` of its projection: the same operations, one for one. -/
theorem messages_eq (x0 : (⟨S50000x256, .f32⟩ : BufTy).Contents (Elt Ideal)) (x1 : (⟨S256x32, .f32⟩ : BufTy).Contents (Elt Ideal))
    (x3 : (⟨S50000x1, .f32⟩ : BufTy).Contents (Elt Ideal)) (x4 x5 : (⟨S1600000, .i32⟩ : BufTy).Contents (Elt Ideal)) :
    val_main_v19 (F := Ideal) x0 x1 x3 x4 x5 = edgeSum (F := Ideal) (val_main_v0 (F := Ideal) x0 x1) x3 x4 x5 := rfl

/-- The reference's result is the layer function of its arguments. -/
theorem reference_value (x0 : (⟨S50000x256, .f32⟩ : BufTy).Contents (Elt Ideal)) (x1 : (⟨S256x32, .f32⟩ : BufTy).Contents (Elt Ideal))
    (x2 : (⟨S32, .f32⟩ : BufTy).Contents (Elt Ideal)) (x3 : (⟨S50000x1, .f32⟩ : BufTy).Contents (Elt Ideal))
    (x4 x5 : (⟨S1600000, .i32⟩ : BufTy).Contents (Elt Ideal)) :
    val_main_v25 (F := Ideal) x0 x1 x2 x3 x4 x5 = layer x0 x1 x2 x3 x4 x5 := by
  funext i
  rw [val_main_v25_apply, val_main_v24_apply, val_main_v21_apply, val_main_v20_apply, val_main_v23_apply,
    val_main_v22_apply, val_main_call0_v0_apply, val_main_call0_cst_apply, messages_eq, projected_eq]
  simp only [Ideal.maximumf_def, Ideal.addf_def, Ideal.mulf_def, Ideal.ofBits_def]
  unfold layer
  refine update_at _ _ _ _ _ _ i rfl ?_ ?_
  · refine congrArg (x3 : S50000x1.Idx → EReal) ?_
    funext a
    match a with
    | ⟨0, _⟩ => rfl
    | ⟨1, _⟩ => rfl
  · rw [Cert.LibRowReshape.shapeCast_b_1b_apply]
    refine congrArg (x2 : S32.Idx → EReal) ?_
    funext a
    match a with
    | ⟨0, _⟩ => rfl

end Cert.ReferenceIdeal.Hand

end
-- ==== Proof.lean ====
/-
  The certificate of a graph layer: `out = max (segment_sum ((h · weight)[src] · norm[src], dst) · norm + bias) 0`.

  The kernel's program projects the features in one pipelined region, runs the gather, the product with the source
  norms and the scatter-add on the host, and updates the nodes in a second pipelined region; the reference does all of
  it on the host.  On the extended reals both compute the same function of the six arguments, `layer`: the kernel's
  matrix product into a zero accumulator and the host's `dot_general` are the same sum over the 256 input features
  (the kernel's roundings to bf16 are the identity there); the operations between the two regions are the reference's
  own, so the summed messages agree without being opened; and the second region's body and the reference's last
  operations are, entry by entry, the same product, sum and maximum in the same order.  No law of arithmetic beyond
  that is used, so the finiteness of the inputs is never opened.

  The three programs' frames: the two kernel programs' are their runs through the two regions; the reference's is its
  run with the result dropped.  The idealization rewrote no operation, so there is nothing to preserve.
-/
import proofs.«159542_j10969346474530_2_alg».proof.Defs
import proofs.«159542_j10969346474530_2_alg».proof.Proof.Gen.Kernel
import proofs.«159542_j10969346474530_2_alg».proof.Proof.Gen.Kernel.Skeleton
import proofs.«159542_j10969346474530_2_alg».proof.Proof.Gen.Kernel.Launch
import proofs.«159542_j10969346474530_2_alg».proof.Proof.Gen.Kernel.Points
import proofs.«159542_j10969346474530_2_alg».proof.Proof.Gen.Kernel.Frame
import proofs.«159542_j10969346474530_2_alg».proof.Proof.Gen.KernelIdeal
import proofs.«159542_j10969346474530_2_alg».proof.Proof.Gen.KernelIdeal.Skeleton
import proofs.«159542_j10969346474530_2_alg».proof.Proof.Gen.KernelIdeal.Launch
import proofs.«159542_j10969346474530_2_alg».proof.Proof.Gen.KernelIdeal.Points
import proofs.«159542_j10969346474530_2_alg».proof.Proof.Gen.KernelIdeal.Frame
import proofs.«159542_j10969346474530_2_alg».proof.Proof.Gen.ReferenceIdeal
import proofs.«159542_j10969346474530_2_alg».proof.Proof.Gen.Pre_finite_inputs
import proofs.«159542_j10969346474530_2_alg».proof.Proof.Gen.ReferenceIdeal.Run
import proofs.«159542_j10969346474530_2_alg».proof.Proof.Gen.ReferenceIdeal.Read
import proofs.«159542_j10969346474530_2_alg».proof.Proof.KernelValue
import proofs.«159542_j10969346474530_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the layer function of the shared arguments in their result buffers. -/
theorem algebraic : Cert.algebraic_KernelIdeal_ReferenceIdeal := by
  intro m ρ m' ρ' _ hagree
  refine ⟨_, Cert.KernelIdeal.Hand.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.Hand.reference_value,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
